-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S64x768 : Shape := ⟨2, ![64, 768]⟩
abbrev S64 : Shape := ⟨1, ![64]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S64x768 : S_.BroadcastsInDim S64x768 (![] : Fin 0 → Fin S64x768.rank)
  reducesTo_S64x768_S_d0_1 : S64x768.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x768 .f32) (main_arg1 : FVec F S64x768 .f32) (main_arg2 : FVec F S64 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x768 : Shape := ⟨2, ![32768, 768]⟩
abbrev S64x768 : Shape := ⟨2, ![64, 768]⟩
abbrev S64 : Shape := ⟨1, ![64]⟩
abbrev S1x64 : Shape := ⟨2, ![1, 64]⟩
abbrev S32768x64 : Shape := ⟨2, ![32768, 64]⟩
abbrev S4096x768 : Shape := ⟨2, ![4096, 768]⟩
abbrev S4096x64 : Shape := ⟨2, ![4096, 64]⟩
abbrev S4096 : Shape := ⟨1, ![4096]⟩
abbrev S4096x1 : Shape := ⟨2, ![4096, 1]⟩

abbrev nBuf : Space → Nat
  | .hbm => 5
  | .vmem => 6
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S64, .f32⟩
  | .hbm, ⟨3, _⟩ => ⟨S1x64, .f32⟩
  | .hbm, ⟨4, _⟩ => ⟨S32768x64, .f32⟩
  | .local _ .vmem, ⟨0, _⟩ => ⟨S4096x768, .f32⟩
  | .local _ .vmem, ⟨1, _⟩ => ⟨S4096x768, .f32⟩
  | .local _ .vmem, ⟨2, _⟩ => ⟨S64x768, .f32⟩
  | .local _ .vmem, ⟨3, _⟩ => ⟨S1x64, .f32⟩
  | .local _ .vmem, ⟨4, _⟩ => ⟨S4096x64, .f32⟩
  | .local _ .vmem, ⟨5, _⟩ => ⟨S4096x64, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  inb_S4096x768_S4096x768_0_0 : ∀ a, (![0, 0] : Fin 2 → Nat) a + S4096x768.size a ≤ S4096x768.size a
  h_S4096x768 : 0 < S4096x768.numel
  inb_S64x768_S64x768_0_0 : ∀ a, (![0, 0] : Fin 2 → Nat) a + S64x768.size a ≤ S64x768.size a
  h_S64x768 : 0 < S64x768.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  reduces_S4096x64_S4096 : S4096x64.Reduces [1] S4096
  shapeCasts_S4096_S4096x1 : S4096.ShapeCasts S4096x1
  broadcasts_S4096x1_S4096x64 : S4096x1.Broadcasts S4096x64
  inb_S4096x64_S4096x64_0_0 : ∀ a, (![0, 0] : Fin 2 → Nat) a + S4096x64.size a ≤ S4096x64.size a
  h_S4096x64 : 0 < S4096x64.numel
  dot_S4096x768_S64x768_S4096x64_1_1_0_0_n_n_wf : DotDims.WF S4096x768 S64x768 S4096x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x768.size a ≤ S32768x768.size a
  hwx0_0 : ∀ i : grid0.Coords, EltTy.bits .f32 = 32 ∨ (Rect.block (s := S32768x768) S4096x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x768.size a ≤ S64x768.size a
  hwx0_1 : ∀ i : grid0.Coords, EltTy.bits .f32 = 32 ∨ (Rect.block (s := S64x768) S64x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S32768x64.size a
  hwx0_3 : ∀ i : grid0.Coords, EltTy.bits .f32 = 32 ∨ (Rect.block (s := S32768x64) S4096x64.size (cc0_transform_3 i) (hinb0_3 i)).WholeWords (EltTy.packing .f32)

variable [Facts₀]

def dot_S4096x768_S64x768_S4096x64_1_1_0_0_n_n : DotDims S4096x768 S64x768 S4096x64 where
  lhsContracting := [1]
  rhsContracting := [1]
  lhsNonContracting := [0]
  rhsNonContracting := [0]
  lhsBatch := []
  rhsBatch := []
  wf := dot_S4096x768_S64x768_S4096x64_1_1_0_0_n_n_wf

abbrev win0_0 : Pipeline.Window sig grid0 :=
  Pipeline.Window.ofSpec (Memref.whole main_arg0) S4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x768 : Shape := ⟨2, ![32768, 768]⟩
abbrev S64x768 : Shape := ⟨2, ![64, 768]⟩
abbrev S64 : Shape := ⟨1, ![64]⟩
abbrev S768x64 : Shape := ⟨2, ![768, 64]⟩
abbrev S32768x64 : Shape := ⟨2, ![32768, 64]⟩
abbrev S1x64 : Shape := ⟨2, ![1, 64]⟩
abbrev S_ : Shape := ⟨0, ![]⟩
abbrev S32768 : Shape := ⟨1, ![32768]⟩
abbrev S32768x1 : Shape := ⟨2, ![32768, 1]⟩

abbrev nBuf : Space → Nat
  | .hbm => 22
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S64, .f32⟩
  | .hbm, ⟨3, _⟩ => ⟨S768x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | .hbm, ⟨8, _⟩ => ⟨S_, .f32⟩
  | .hbm, ⟨9, _⟩ => ⟨S32768, .f32⟩
  | .hbm, ⟨10, _⟩ => ⟨S_, .f32⟩
  | .hbm, ⟨11, _⟩ => ⟨S32768, .f32⟩
  | .hbm, ⟨12, _⟩ => ⟨S32768, .f32⟩
  | .hbm, ⟨13, _⟩ => ⟨S32768x1, .f32⟩
  | .hbm, ⟨14, _⟩ => ⟨S32768x64, .f32⟩
  | .hbm, ⟨15, _⟩ => ⟨S32768x64, .f32⟩
  | .hbm, ⟨16, _⟩ => ⟨S32768x64, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S32768x64, .f32⟩
  | .hbm, ⟨21, _⟩ => ⟨S32768x64, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x768_S768x64_1_0 : S64x768.Transposes [1, 0] S768x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  dot_S32768x768_S768x64_S32768x64_1_0_0_1_n_n_wf : DotDims.WF S32768x768 S768x64 S32768x64 [1] [0] [0] [1] [] []

variable [Facts₀]

def dot_S32768x768_S768x64_S32768x64_1_0_0_1_n_n : DotDims S32768x768 S768x64 S32768x64 where
  lhsContracting := [1]
  rhsContracting := [0]
  lhsNonContracting := [0]
  rhsNonContracting := [1]
  lhsBatch := []
  rhsBatch := []
  wf := dot_S32768x768_S768x64_S32768x64_1_0_0_1_n_n_wf

class Facts : Prop extends Facts₀ where

variable [Facts]
-- ==== Proof.Finite.lean ====
/-
  What the precondition says of the inputs. It is the conjunction of three tests, one per argument array: every
  entry's absolute value is strictly below `+∞`. On the extended reals `|x| < +∞` excludes exactly `x = +∞` and
  `x = -∞`, so it says that every entry of the tokens, the weights and the bias is a real number.
-/
import proofs.«176954_g24068996727021_cont_8to1_1417_26_alg».proof.Pre_finite_inputs
import proofs.«176954_g24068996727021_cont_8to1_1417_26_alg».proof.Proof.Gen.Pre_finite_inputs
import Idealize.ShloMosaic.PureOps.Ideal.Laws
import Idealize.ShloMosaic.Lib.ValueIdx
import Idealize.ShloMosaic.Lib.ReduceAll
import Idealize.ShloMosaic.Lib.Affine

noncomputable section

namespace Cert.Gate

open Idealize.ShloMosaic Idealize.ShloMosaic.ValueIdx

/-- An extended real whose absolute value `max x (-x)` is strictly below `+∞` (the pattern `0x7F800000`) is a real:
    at `x = ±∞` the absolute value is `+∞` itself, and `+∞ < +∞` fails. -/
theorem real_of_abs_lt_top (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every entry of the three argument arrays is a real. -/
theorem inputs_real [Cert.Pre_finite_inputs.Facts]
    (X : FVec Ideal Cert.Pre_finite_inputs.S32768x768 .f32) (W : FVec Ideal Cert.Pre_finite_inputs.S64x768 .f32)
    (B : FVec Ideal Cert.Pre_finite_inputs.S64 .f32)
    (h : Cert.Pre_finite_inputs.fn (F := Ideal) X W B = fun _ => 1#1) :
    (∀ i, ∃ r : ℝ, X i = r) ∧ (∀ i, ∃ r : ℝ, W i = r) ∧ (∀ i, ∃ r : ℝ, B i = r) := by
  haveI : Subsingleton Cert.Pre_finite_inputs.S_.Idx := ⟨fun a b => funext fun d => d.elim0⟩
  have h0 := congrFun h ix0
  dsimp only [Cert.Pre_finite_inputs.fn] at h0
  change IntOp.andi (IntOp.andi _ _) _ = 1#1 at h0
  obtain ⟨h12, h3⟩ := IntOp.andi_eq_one.1 h0
  obtain ⟨h1, h2⟩ := IntOp.andi_eq_one.1 h12
  exact ⟨fun i => real_of_abs_lt_top _ (Host.reduce_andi_all _ _ _ _ _ h1 i),
    fun i => real_of_abs_lt_top _ (Host.reduce_andi_all _ _ _ _ _ h2 i),
    fun i => real_of_abs_lt_top _ (Host.reduce_andi_all _ _ _ _ _ h3 i)⟩

end Cert.Gate

end
-- ==== Proof.Softmax.lean ====
/-
  The mathematics of the gate, with no program in sight.

  A token's score for expert `q` is `logit q = (∑ k, x k * w q k) + b q`. The gate value is the softmax of the
  64 scores. It is written here without a shift, `exp (l q) * (1 / ∑ q', exp (l q'))`; the same quantity with
  every score shifted by one real number `μ`, `exp (l q - μ) / ∑ q', exp (l q' - μ)`, is equal to it, because
  `exp (a - μ) = exp a / exp μ` and the common factor `1 / exp μ` cancels between numerator and denominator.
  The cancellation needs `exp μ` to be neither `0` nor `∞`, that is `μ` real, and the scores real: this is where
  finiteness of the inputs is used. Which real `μ` is plays no role; in particular it need not be the maximum.
-/
import Idealize.ShloMosaic.PureOps.Ideal
import Idealize.ShloMosaic.PureOps.Ideal.Laws

noncomputable section

open Idealize.ShloMosaic
open scoped BigOperators

namespace Cert.Gate

/-- One token's score for expert `q`: the inner product of the token's 768 features with the expert's weights,
    plus the expert's bias. -/
def logit (xr : Fin 768 → EReal) (w : Fin 64 → Fin 768 → EReal) (b : Fin 64 → EReal) (q : Fin 64) : EReal :=
  (∑ k : Fin 768, xr k * w q k) + b q

/-- The softmax of 64 scores at expert `q`, with no shift: `e^{l q}` times the reciprocal of `∑ e^{l q'}`. -/
def gate (l : Fin 64 → EReal) (q : Fin 64) : EReal :=
  Ideal.exp (l q) * Ideal.div 1 (∑ q' : Fin 64, Ideal.exp (l q'))

/-- The inclusion of the reals in the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Real features, weights and biases give a real score. -/
theorem logit_coe (xr : Fin 768 → ℝ) (w : Fin 64 → Fin 768 → ℝ) (b : Fin 64 → ℝ) (q : Fin 64) :
    logit (fun k => (xr k : EReal)) (fun q k => (w q k : EReal)) (fun q => (b q : EReal)) q
      = (((∑ k : Fin 768, xr k * w q k) + b q : ℝ) : EReal) := by
  unfold logit
  rw [EReal.coe_add, coe_sum]
  simp only [EReal.coe_mul]

/-- SHIFT INVARIANCE. For real scores `l` and a real shift `μ`, the shifted quotient
    `e^{l q - μ} / (0 + ∑ e^{l q' - μ})` is the unshifted gate: `e^{a - μ} = e^a / e^μ`, and `1 / e^μ` cancels. -/
theorem shift_eq (l : Fin 64 → ℝ) (μ : ℝ) (q : Fin 64) :
    Ideal.div (Ideal.exp ((l q : EReal) - (μ : EReal))) (0 + ∑ q' : Fin 64, Ideal.exp ((l q' : EReal) - (μ : EReal)))
      = gate (fun q => (l q : EReal)) q := by
  have hS : 0 < ∑ q' : Fin 64, Real.exp (l q') := Finset.sum_pos (fun _ _ => Real.exp_pos _) Finset.univ_nonempty
  have hSμ : 0 < ∑ q' : Fin 64, Real.exp (l q' - μ) := Finset.sum_pos (fun _ _ => Real.exp_pos _) Finset.univ_nonempty
  have e1 : ∀ a : ℝ, Ideal.exp ((a : EReal) - (μ : EReal)) = ((Real.exp (a - μ) : ℝ) : EReal) := fun a => by
    rw [← EReal.coe_sub]; rfl
  have e2 : ∀ a : ℝ, Ideal.exp (a : EReal) = ((Real.exp a : ℝ) : EReal) := fun a => rfl
  unfold gate
  simp only [e1, e2, ← coe_sum, zero_add]
  rw [Ideal.div_coe hSμ.ne', Ideal.div_coe hS.ne', one_mul, ← EReal.coe_mul, ← EReal.coe_mul]
  congr 1
  have hsum : ∑ q' : Fin 64, Real.exp (l q' - μ) = (∑ q' : Fin 64, Real.exp (l q')) / Real.exp μ := by
    rw [Finset.sum_div]; exact Finset.sum_congr rfl fun _ _ => Real.exp_sub _ _
  rw [hsum, Real.exp_sub]
  have hμ := Real.exp_pos μ
  field_simp

/-- A maximum, taken from `-∞`, over a nonempty finite family of reals is a real. -/
theorem fold_max_real {ι : Type*} (s : Finset ι) (hs : s.Nonempty) (f : ι → EReal) (hf : ∀ k ∈ s, ∃ r : ℝ, f k = r) :
    ∃ r : ℝ, s.fold max (⊥ : EReal) f = r := by
  have hlt : s.fold max (⊥ : EReal) f < ⊤ := by
    rw [Finset.fold_max_lt]
    exact ⟨bot_lt_top, fun k hk => by obtain ⟨r, hr⟩ := hf k hk; rw [hr]; exact EReal.coe_lt_top r⟩
  have hgt : ⊥ < s.fold max (⊥ : EReal) f := by
    rw [Finset.lt_fold_max]
    obtain ⟨k, hk⟩ := hs
    exact Or.inr ⟨k, hk, by obtain ⟨r, hr⟩ := hf k hk; rw [hr]; exact EReal.bot_lt_coe r⟩
  exact ⟨_, (EReal.coe_toReal hlt.ne hgt.ne').symm⟩

end Cert.Gate

end
-- ==== Proof.LibKeepdims.lean ====
/-
  Two layout operations read at an index, for a column kept as a unit axis (what `sum(…, keepdims=True)` produces):
  an `[a]` array viewed as an `[a, 1]` column, and an `[a, 1]` column repeated along `b` columns. Both are general
  in the extents.
-/
import Idealize.ShloMosaic.Lib.ValueLayout
import Idealize.ShloMosaic.Lib.Pipeline.Value

namespace Idealize.ShloMosaic.ValueIdx

variable {α : Type}

/-- An `[a]` array cast to `[a, 1]` reads, at `(i, u)`, the operand at `i`, whatever the unit coordinate `u`:
    the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload.lean ====
/-
  What the kernel body stores, read at one entry.

  The body is given a block of 4096 tokens `x0` (4096 × 768), all the expert weights `x1` (64 × 768) and the bias
  as one row `x2` (1 × 64). It forms the 4096 × 64 scores by a matrix product contracting the feature axis of both
  operands, adds the bias row to every token's row, exponentiates, sums each row over the 64 experts, and multiplies
  each exponential by the reciprocal of its row's sum. At entry `(p, q)` this is the unshifted softmax `Gate.gate` of
  token `p`'s scores `Gate.logit`, at expert `q`: an entry depends on row `p` of `x0` only, and on all of `x1`, `x2`.
-/
import proofs.«176954_g24068996727021_cont_8to1_1417_26_alg».proof.Proof.Gen.KernelIdeal.Skeleton
import proofs.«176954_g24068996727021_cont_8to1_1417_26_alg».proof.Proof.Softmax
import proofs.«176954_g24068996727021_cont_8to1_1417_26_alg».proof.Proof.LibKeepdims
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.GateValue

open Cert.KernelIdeal Cert.KernelIdeal.Gen Idealize.ShloMosaic Idealize.ShloMosaic.ValueIdx Cert.Gate
open scoped BigOperators

/-! ## The matrix product: which entries of its operands meet at `(p, q)` and contraction index `k` -/

theorem lhs_row (i : S4096x64.Idx) (k : dot_S4096x768_S64x768_S4096x64_1_1_0_0_n_n.contr.Idx) :
    (dot_S4096x768_S64x768_S4096x64_1_1_0_0_n_n.lhsIdx i k 0).val = (i 0).val := by
  unfold DotDims.lhsIdx
  rw [dif_neg (show ¬(0 : Fin S4096x768.rank) ∈ dot_S4096x768_S64x768_S4096x64_1_1_0_0_n_n.lhsBatch by decide),
    dif_pos (show (0 : Fin S4096x768.rank) ∈ dot_S4096x768_S64x768_S4096x64_1_1_0_0_n_n.lhsNonContracting by decide)]
  rfl
theorem lhs_feature (i : S4096x64.Idx) (k : dot_S4096x768_S64x768_S4096x64_1_1_0_0_n_n.contr.Idx) :
    (dot_S4096x768_S64x768_S4096x64_1_1_0_0_n_n.lhsIdx i k 1).val = (k ⟨0, by decide⟩).val :=
  dot_S4096x768_S64x768_S4096x64_1_1_0_0_n_n.lhsIdx_val_of_single rfl i k
theorem rhs_expert (i : S4096x64.Idx) (k : dot_S4096x768_S64x768_S4096x64_1_1_0_0_n_n.contr.Idx) :
    (dot_S4096x768_S64x768_S4096x64_1_1_0_0_n_n.rhsIdx i k 0).val = (i 1).val := by
  unfold DotDims.rhsIdx
  rw [dif_neg (show ¬(0 : Fin S64x768.rank) ∈ dot_S4096x768_S64x768_S4096x64_1_1_0_0_n_n.rhsBatch by decide),
    dif_pos (show (0 : Fin S64x768.rank) ∈ dot_S4096x768_S64x768_S4096x64_1_1_0_0_n_n.rhsNonContracting by decide)]
  rfl
theorem rhs_feature (i : S4096x64.Idx) (k : dot_S4096x768_S64x768_S4096x64_1_1_0_0_n_n.contr.Idx) :
    (dot_S4096x768_S64x768_S4096x64_1_1_0_0_n_n.rhsIdx i k 1).val = (k ⟨0, by decide⟩).val :=
  dot_S4096x768_S64x768_S4096x64_1_1_0_0_n_n.rhsIdx_val_of_single rfl i k

/-- The product into a zero accumulator, at `(p, q)`: token `p`'s features against expert `q`'s weights. -/
theorem product_apply (x0 : FVec Ideal S4096x768 .f32) (x1 : FVec Ideal S64x768 .f32) (p : Fin 4096) (q : Fin 64) :
    matmul dot_S4096x768_S64x768_S4096x64_1_1_0_0_n_n none x0 x1 (constant (F := Ideal) S4096x64 .f32 0x00000000#32) (ix2 p q)
      = ∑ k : Fin 768, x0 (ix2 p k) * x1 (ix2 q k) := by
  simp only [matmul]
  rw [Ideal.matmul_constant_zero_apply, ← Equiv.sum_comp (contrEquiv1 dot_S4096x768_S64x768_S4096x64_1_1_0_0_n_n 768 rfl rfl).symm]
  refine Finset.sum_congr rfl fun k _ => ?_
  have hk := contrEquiv1_symm_val dot_S4096x768_S64x768_S4096x64_1_1_0_0_n_n 768 rfl rfl k
  have el : dot_S4096x768_S64x768_S4096x64_1_1_0_0_n_n.lhsIdx (ix2 p q) ((contrEquiv1 dot_S4096x768_S64x768_S4096x64_1_1_0_0_n_n 768 rfl rfl).symm k) = ix2 p k :=
    funext fun a => Fin.ext (by
      match a with
      | ⟨0, _⟩ => exact lhs_row _ _
      | ⟨1, _⟩ => exact (lhs_feature _ _).trans hk)
  have er : dot_S4096x768_S64x768_S4096x64_1_1_0_0_n_n.rhsIdx (ix2 p q) ((contrEquiv1 dot_S4096x768_S64x768_S4096x64_1_1_0_0_n_n 768 rfl rfl).symm k) = ix2 q k :=
    funext fun a => Fin.ext (by
      match a with
      | ⟨0, _⟩ => exact rhs_expert _ _
      | ⟨1, _⟩ => exact (rhs_feature _ _).trans hk)
  rw [el, er]

/-! ## The row sum over the experts -/

/-- Row `p` with expert `k` put back is `(p, k)`. -/
theorem lift_row (p : Fin 4096) (k : Fin (S4096x64.size 1)) :
    (reduces_S4096x64_S4096).lift (ix1 p) k = ix2 p (⟨k.val, k.isLt⟩ : Fin 64) := by
  funext c; apply Fin.ext
  fin_cases c <;> rfl

/-- The sum of a 4096 × 64 array over its second axis, at row `p`. -/
theorem rowsum_apply (v : FVec Ideal S4096x64 .f32) (hφ : FKind.Formats .f32) (hacc : (0x00000000#32 : BitVec 32) = 0x00000000#32)
    (p : Fin 4096) :
    multiReduction (F := Ideal) .add [1] S4096 v 0x00000000#32 reduces_S4096x64_S4096 hφ hacc (ix1 p)
      = ∑ q' : Fin 64, v (ix2 p q') := by
  refine (Ideal.multiReduction_add_single v 0x00000000#32 reduces_S4096x64_S4096 hφ hacc (ix1 p)).trans ?_
  exact Finset.sum_congr rfl fun k _ => congrArg v (lift_row p k)

/-! ## The stored value -/

/-- The scores before the exponential, at `(p, q)`. -/
theorem scores_apply (x0 : FVec Ideal S4096x768 .f32) (x1 : FVec Ideal S64x768 .f32) (x2 : FVec Ideal S1x64 .f32) (p : Fin 4096) (q : Fin 64) :
    addf (matmul dot_S4096x768_S64x768_S4096x64_1_1_0_0_n_n none x0 x1 (constant (F := Ideal) S4096x64 .f32 0x00000000#32))
        (broadcastTo S4096x64 (shapeCast S1x64 x2 shapeCasts_S1x64_S1x64) broadcasts_S1x64_S4096x64) (ix2 p q)
      = logit (fun k => x0 (ix2 p k)) (fun q k => x1 (ix2 q k)) (fun q => x2 (ix2 (0 : Fin 1) q)) q := by
  show _ + _ = _
  rw [product_apply, shapeCast_self]
  exact congrArg (_ + ·) (broadcastTo_1b_ab_apply x2 broadcasts_S1x64_S4096x64 p q)

/-- The normalisation, for ANY 4096 × 64 array `v` whose row `p` is `e^{l q'}`: `v` times the reciprocal of its row
    sums (the sum kept as a column, the literal `1.0` divided by it, the quotient repeated along the row), at `(p, q)`,
    is the unshifted softmax of `l` at `q`. -/
theorem normalize_apply (v : FVec Ideal S4096x64 .f32) (l : Fin 64 → EReal) (hφ : FKind.Formats .f32)
    (hacc : (0x00000000#32 : BitVec 32) = 0x00000000#32) (p : Fin 4096) (q : Fin 64)
    (hv : ∀ q' : Fin 64, v (ix2 p q') = Ideal.exp (l q')) :
    mulf v (broadcastTo S4096x64
        (divf (broadcast S4096x1 (FloatOps.ofBits (F := Ideal) .f32 0x3F800000#32))
          (shapeCast S4096x1 (multiReduction (F := Ideal) .add [1] S4096 v 0x00000000#32 reduces_S4096x64_S4096 hφ hacc) shapeCasts_S4096_S4096x1))
        broadcasts_S4096x1_S4096x64) (ix2 p q)
      = gate l q := by
  show v (ix2 p q) * _ = _
  unfold gate
  rw [hv q]
  refine congrArg (fun z : EReal => Ideal.exp (l q) * z) ?_
  refine (broadcastTo_a1_ab_apply _ broadcasts_S4096x1_S4096x64 p q).trans ?_
  show Ideal.div (Ideal.ofBits .f32 0x3F800000#32) _ = _
  rw [Ideal.ofBits_one_f32]
  refine congrArg (Ideal.div 1) ?_
  refine (shapeCast_a_a1_apply _ shapeCasts_S4096_S4096x1 p 0).trans ?_
  refine (rowsum_apply v hφ hacc p).trans ?_
  exact Finset.sum_congr rfl fun q' _ => hv q'

/-- THE PAYLOAD AT AN ENTRY: the unshifted softmax of token `p`'s scores, at expert `q`. -/
theorem pay_apply (x0 : Vec Ideal S4096x768 .f32) (x1 : Vec Ideal S64x768 .f32) (x2 : Vec Ideal S1x64 .f32) (p : Fin 4096) (q : Fin 64) :
    k0_pay1 (F := Ideal) x0 x1 x2 (ix2 p q)
      = gate (logit (fun k => x0 (ix2 p k)) (fun q k => x1 (ix2 q k)) (fun q => x2 (ix2 (0 : Fin 1) q))) q := by
  unfold k0_pay1
  exact normalize_apply _ _ _ _ p q (fun q' => congrArg Ideal.exp (scores_apply x0 x1 x2 p q'))

end Cert.KernelIdeal.GateValue

end
-- ==== Proof.Spec.lean ====
/-
  The result as ONE function of the three inputs, entry by entry: entry `(r, q)` of the 32768 × 64 result is the
  unshifted softmax, at expert `q`, of token `r`'s 64 scores. It reads row `r` of the tokens, all the weights and
  all the biases.
-/
import proofs.«176954_g24068996727021_cont_8to1_1417_26_alg».proof.Proof.Softmax
import Idealize.ShloMosaic.Lib.ValueIdx

noncomputable section

namespace Cert.Gate

open Idealize.ShloMosaic Idealize.ShloMosaic.ValueIdx

/-- Token `r`'s gate value for expert `q`. -/
def gateAt (X : (⟨2, ![32768, 768]⟩ : Shape).Idx → EReal) (W : (⟨2, ![64, 768]⟩ : Shape).Idx → EReal) (b : Fin 64 → EReal)
    (r : Fin 32768) (q : Fin 64) : EReal :=
  gate (logit (fun k => X (ix2 r k)) (fun q k => W (ix2 q k)) b) q

/-- The whole result array. -/
def scores (X : (⟨2, ![32768, 768]⟩ : Shape).Idx → EReal) (W : (⟨2, ![64, 768]⟩ : Shape).Idx → EReal) (b : Fin 64 → EReal) :
    (⟨2, ![32768, 64]⟩ : Shape).Idx → EReal :=
  fun i => gateAt X W b ⟨(i 0).val, idx2_lt0 i⟩ ⟨(i 1).val, idx2_lt1 i⟩

theorem scores_ix2 (X : (⟨2, ![32768, 768]⟩ : Shape).Idx → EReal) (W : (⟨2, ![64, 768]⟩ : Shape).Idx → EReal) (b : Fin 64 → EReal)
    (r : Fin 32768) (q : Fin 64) : scores X W b (ix2 r q) = gateAt X W b r q := rfl

end Cert.Gate

end
-- ==== Proof.Blocks.lean ====
/-
  From the eight blocks to the whole result array.

  The grid has eight points. At point `t` the body is given rows `4096·t … 4096·t + 4095` of the tokens, all the
  weights and the bias row, and what it stores is written back as the same rows of the result: all 64 columns. An entry
  of the result depends on its own row of the tokens only, so block `t` of the result is the restriction to those rows
  of ONE function of the whole arrays, `Gate.scores`; the eight row ranges cover all 32768 rows; hence the result array
  is that function. The bias reaches the region as a 1 × 64 row, a reshape of the 64 biases made before the region.
-/
import proofs.«176954_g24068996727021_cont_8to1_1417_26_alg».proof.Proof.Gen.KernelIdeal.Value
import proofs.«176954_g24068996727021_cont_8to1_1417_26_alg».proof.Proof.Payload
import proofs.«176954_g24068996727021_cont_8to1_1417_26_alg».proof.Proof.Spec
import Idealize.ShloMosaic.Lib.Pipeline.Value
import Idealize.ShloMosaic.Lib.ValueLayout
import Idealize.ShloMosaic.Lib.StableHlo.Run

set_option maxRecDepth 16384

noncomputable section

namespace Cert.KernelIdeal.GateValue

open Cert.KernelIdeal Cert.KernelIdeal.Gen Idealize.ShloMosaic Idealize.ShloMosaic.TcCoe Idealize.SL.Sem
open Idealize.ShloMosaic.ValueIdx Idealize.ShloMosaic.StableHlo Cert.Gate
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The block indices at each of the eight points: the tokens' and the result's blocks are row block `t`, column
    block `0`; the weights and the bias row are their one block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 8 := by
  have h := t.isLt
  have hN : cfg0.N = 8 := N_0
  omega

/-- Row `p` of block `t` is row `4096·t + p` of the array. -/
def row (t : Fin cfg0.N) (p : Fin 4096) : Fin 32768 :=
  ⟨t.val * 4096 + p.val, by have := point_lt t; have := p.isLt; omega⟩

/-! ## What each window's block reads -/

theorem read_tokens (c : Dev nD) (t : Fin cfg0.N) (p : Fin 4096) (k : Fin 768) :
    iblk m c 0 t (ix2 p k) = V m c main_arg0 (ix2 (row t p) k) := by
  obtain ⟨e00, e01, -⟩ := block_indices t
  show V m c main_arg0 (((cfg0.win 0).blk t).view.emb (ix2 p k)) = V m c main_arg0 (ix2 (row t p) k)
  have hi : ((cfg0.win 0).blk t).view.emb (ix2 p k) = ix2 (row t p) k := by
    funext a; apply Fin.ext
    match a with
    | ⟨0, _⟩ => show win0_0.index t (0 : Fin 2) * 4096 + 1 * p.val = t.val * 4096 + p.val; omega
    | ⟨1, _⟩ => show win0_0.index t (1 : Fin 2) * 768 + 1 * k.val = k.val; omega
  rw [hi]

theorem read_weights (c : Dev nD) (t : Fin cfg0.N) (q : Fin 64) (k : Fin 768) :
    iblk m c 1 t (ix2 q k) = V m c main_arg1 (ix2 q k) := by
  obtain ⟨-, -, e10, e11, -⟩ := block_indices t
  show V m c main_arg1 (((cfg0.win 1).blk t).view.emb (ix2 q k)) = V m c main_arg1 (ix2 q k)
  have hi : ((cfg0.win 1).blk t).view.emb (ix2 q k) = ix2 q k := by
    funext a; apply Fin.ext
    match a with
    | ⟨0, _⟩ => show win0_1.index t (0 : Fin 2) * 64 + 1 * q.val = q.val; omega
    | ⟨1, _⟩ => show win0_1.index t (1 : Fin 2) * 768 + 1 * k.val = k.val; omega
  rw [hi]

theorem read_bias (c : Dev nD) (t : Fin cfg0.N) (q : Fin 64) :
    iblk m c 2 t (ix2 (0 : Fin 1) q) = V m c main_call0_v0 (ix2 (0 : Fin 1) q) := by
  obtain ⟨-, -, -, -, e20, e21, -⟩ := block_indices t
  show V m c main_call0_v0 (((cfg0.win 2).blk t).view.emb (ix2 (0 : Fin 1) q)) = V m c main_call0_v0 (ix2 (0 : Fin 1) q)
  have hi : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 64 + 1 * q.val = q.val; omega
  rw [hi]

theorem result_index (t : Fin cfg0.N) (p : Fin 4096) (q : Fin 64) :
    ((cfg0.win 3).blk t).view.emb (ix2 p q) = ix2 (row t p) q := by
  obtain ⟨-, -, -, -, -, -, e30, e31⟩ := block_indices t
  funext a; apply Fin.ext
  match a with
  | ⟨0, _⟩ => show win0_3.index t (0 : Fin 2) * 4096 + 1 * p.val = t.val * 4096 + p.val; omega
  | ⟨1, _⟩ => show win0_3.index t (1 : Fin 2) * 64 + 1 * q.val = q.val; omega

/-! ## The whole array -/

/-- The result array as one function of the arrays the region finds. -/
def result (c : Dev nD) : S32768x64.Idx → EReal :=
  scores (V m c main_arg0) (V m c main_arg1) (fun q => V m c main_call0_v0 (ix2 (0 : Fin 1) q))

/-- WHAT POINT `t` WRITES BACK is block `t` of `result`. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold out0_3
  rw [View.canon_unit_zero offsets_zero]
  simp only [View.ld_unit_zero (S := S4096x768) offsets_zero, View.ld_unit_zero (S := S64x768) offsets_zero,
    View.ld_unit_zero (S := S1x64) offsets_zero]
  funext j
  obtain ⟨p, q, rfl⟩ : ∃ (p : Fin 4096) (q : Fin 64), j = ix2 p q := ⟨j 0, j 1, eq_ix2 j⟩
  show k0_pay1 (iblk m c 0 t) (iblk m c 1 t) (iblk m c 2 t) (ix2 p q) = result m c (((cfg0.win 3).blk t).view.emb (ix2 p q))
  rw [result_index]
  refine (pay_apply _ _ _ p q).trans ?_
  simp only [read_tokens, read_weights, read_bias]
  rfl

/-- An index of the result is in point `t`'s block iff each coordinate is in the block's range on its axis. -/
theorem mem_block (t : Fin cfg0.N) (i : S32768x64.Idx) :
    i ∈ ((cfg0.win 3).blk t).view.set ↔ ∀ a : Fin 2, win0_3.index t a * S4096x64.size a ≤ (i a).val ∧ (i a).val < win0_3.index t a * S4096x64.size a + S4096x64.size a := by
  show i ∈ ((View.whole main_v0).slice (win0_3.rect t)).set ↔ _
  rw [View.set_slice_whole, Rect.mem_set_unit]
  exact Iff.rfl

/-- Every row is in some block: row `r` is in block `r / 4096`. -/
theorem covered (i : S32768x64.Idx) : ∃ t : Fin cfg0.N, (cfg0.win 3).flush t = true ∧ i ∈ ((cfg0.win 3).blk t).view.set := by
  have hi0 : (i 0).val < 32768 := idx2_lt0 i
  have hi1 : (i 1).val < 64 := idx2_lt1 i
  have hN : cfg0.N = 8 := N_0
  have ht : (i 0).val / 4096 < cfg0.N := by omega
  obtain ⟨-, -, -, -, -, -, e30, e31⟩ := block_indices ⟨(i 0).val / 4096, ht⟩
  refine ⟨⟨(i 0).val / 4096, ht⟩, flush0_3 _, ?_⟩
  rw [mem_block]
  intro a
  match a with
  | ⟨0, _⟩ =>
    show win0_3.index ⟨(i 0).val / 4096, ht⟩ (0 : Fin 2) * 4096 ≤ (i 0).val ∧ (i 0).val < win0_3.index ⟨(i 0).val / 4096, ht⟩ (0 : Fin 2) * 4096 + 4096
    have e : win0_3.index ⟨(i 0).val / 4096, ht⟩ (0 : Fin 2) = (i 0).val / 4096 := e30
    omega
  | ⟨1, _⟩ =>
    show win0_3.index ⟨(i 0).val / 4096, ht⟩ (1 : Fin 2) * 64 ≤ (i 1).val ∧ (i 1).val < win0_3.index ⟨(i 0).val / 4096, ht⟩ (1 : Fin 2) * 64 + 64
    omega

/-- THE RESULT ARRAY after the run. -/
theorem final (c : Dev nD) : (dats m 0 c).arrAt 3 cfg0.N = result m c :=
  (dats m 0 c).arrAt_eq_of_cover 3 (result m c) (fun t _ => flushed_eq m c t) covered

/-! ## In terms of the arguments as launched -/

/-- The bias row the region finds: the 64 biases reshaped to 1 × 64 by the host before the region. -/
theorem bias_row (c : Dev nD) :
    (V m c main_call0_v0 : S1x64.Idx → EReal) = shapeCast S1x64 (m ((c : Thread nD τ).loc main_arg2)) shapeCasts_S64_S1x64 := by
  dsimp only [Gen.V, Gen.hostOps0]
  after_results
  rfl

theorem result_eq (c : Dev nD) :
    result m c = scores (m ((c : Thread nD τ).loc main_arg0)) (m ((c : Thread nD τ).loc main_arg1))
      (fun q => m ((c : Thread nD τ).loc main_arg2) (ix1 q)) := by
  have h2 : ∀ q : Fin 64, V m c main_call0_v0 (ix2 (0 : Fin 1) q) = m ((c : Thread nD τ).loc main_arg2) (ix1 q) := fun q =>
    (congrFun (bias_row m c) (ix2 (0 : Fin 1) q)).trans (shapeCast_a_1a_apply _ shapeCasts_S64_S1x64 0 q)
  unfold result
  rw [V_main_arg0, V_main_arg1]
  exact congrArg (scores _ _) (funext h2)

/-- The kernel's run with the result array named: `Gate.scores` of the arguments as launched; the arguments unchanged. -/
theorem run : θ_run defs (onTc (τ := τ) (main (F := Ideal))) ⟨m, fun _ => 0, ρ⟩ fun r => ∀ c : Dev nD,
      r.2.mem ((c : Thread nD τ).loc main_v0) = scores (m ((c : Thread nD τ).loc main_arg0)) (m ((c : Thread nD τ).loc main_arg1))
        (fun q => m ((c : Thread nD τ).loc main_arg2) (ix1 q))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (result_eq m c)), (h c).2⟩)
    (Cert.KernelIdeal.Value.run_blocks m ρ)

end Cert.KernelIdeal.GateValue

end
-- ==== Proof.RefGate.lean ====
/-
  The reference computes the same array. It forms the scores `x · wᵀ + b` (the product against the transposed
  weights: entry `(r, q)` pairs row `r` of the tokens with row `q` of the weights), takes each row's maximum from
  `-∞`, subtracts it, exponentiates, sums each row from `0`, and divides. With real inputs every score is real, so
  the row's maximum is a real number `μ`; the reference's entry is then the shifted quotient of `Gate.shift_eq`, which
  equals the unshifted softmax. That `μ` is the maximum is never used — only that it is real.
-/
import proofs.«176954_g24068996727021_cont_8to1_1417_26_alg».proof.Proof.Gen.ReferenceIdeal.Read
import proofs.«176954_g24068996727021_cont_8to1_1417_26_alg».proof.Proof.Spec
import Idealize.ShloMosaic.Lib.ValueIdx
import Idealize.ShloMosaic.Lib.IdealHost
import Idealize.ShloMosaic.PureOps.Reduce
import Idealize.ShloMosaic.PureOps.Ideal.Laws

noncomputable section

namespace Cert.ReferenceIdeal.GateValue

open Cert.ReferenceIdeal Cert.ReferenceIdeal.Gen Cert.ReferenceIdeal.Read Idealize.ShloMosaic Idealize.ShloMosaic.ValueIdx Cert.Gate
open scoped BigOperators

variable (X : FVec Ideal S32768x768 .f32) (W : FVec Ideal S64x768 .f32) (B : FVec Ideal S64 .f32)

/-! ## Which entries each stage reads -/

theorem tokens_idx (r : Fin 32768) (q : Fin 64) (k : Fin 768) : lidx_main_v1 (ix2 r q) k = ix2 r k :=
  funext fun a => by match a with | ⟨0, _⟩ => rfl | ⟨1, _⟩ => rfl
theorem weights_idx (r : Fin 32768) (q : Fin 64) (k : Fin 768) : idx_main_v0 (ridx_main_v1 (ix2 r q) k) = ix2 q k :=
  funext fun a => by match a with | ⟨0, _⟩ => rfl | ⟨1, _⟩ => rfl
theorem bias_idx (r : Fin 32768) (q : Fin 64) : idx_main_v2 (idx_main_v3 (ix2 r q)) = ix1 q :=
  funext fun a => by match a with | ⟨0, _⟩ => rfl
theorem max_idx (r : Fin 32768) (q : Fin 64) : idx_main_v8 (idx_main_v9 (ix2 r q)) = ix1 r :=
  funext fun a => by match a with | ⟨0, _⟩ => rfl
theorem sum_idx (r : Fin 32768) (q : Fin 64) (k : Fin 64) : idx_main_v12 (idx_main_v13 (idx_main_v14 (ix2 r q))) k = ix2 r k :=
  funext fun a => by match a with | ⟨0, _⟩ => rfl | ⟨1, _⟩ => rfl

/-- The reference's scores at `(r, q)`. -/
theorem logits_apply (r : Fin 32768) (q : Fin 64) :
    val_main_v4 (F := Ideal) X W B (ix2 r q) = logit (fun k => X (ix2 r k)) (fun q k => W (ix2 q k)) (fun q => B (ix1 q)) q := by
  rw [val_main_v4_apply, val_main_v1_apply, val_main_v3_apply, val_main_v2_apply]
  simp only [val_main_v0_apply, tokens_idx, weights_idx, bias_idx]
  rfl

/-! ## The row maximum is a real -/

/-- Row `r` with expert `k` put back is `(r, k)`. -/
theorem lift_row (h : S32768x64.Reduces [1] S32768) (r : Fin 32768) (k : Fin (S32768x64.size 1)) :
    h.lift (ix1 r) k = ix2 r (⟨k.val, k.isLt⟩ : Fin 64) := by
  funext c; apply Fin.ext
  fin_cases c <;> rfl

theorem shift_real (r : Fin 32768) (hL : ∀ q : Fin 64, ∃ l : ℝ, val_main_v4 (F := Ideal) X W B (ix2 r q) = l) :
    ∃ μ : ℝ, val_main_v7 (F := Ideal) X W B (ix1 r) = μ := by
  have hbot : Ideal.ofBits .f32 0xFF800000#32 = (⊥ : EReal) := by simp [Ideal.ofBits, Ideal.ieee]
  have hred : S32768x64.Reduces [1] S32768 := by decide
  rw [val_main_v7_apply, val_main_v6_apply, val_main_cst_0_apply]
  unfold val_main_v5
  rw [Host.reduce_eq_fold_single FloatOps.maximumf _ _ reducesTo_S32768x64_S32768_d1 hred h_S_]
  show ∃ μ : ℝ, max (Ideal.ofBits .f32 0xFF800000#32)
    ((Finset.univ : Finset (Fin (S32768x64.size 1))).fold max (Ideal.ofBits .f32 0xFF800000#32) (val_main_v4 (F := Ideal) X W B ∘ hred.lift (ix1 r))) = μ
  rw [hbot, max_eq_right bot_le]
  refine fold_max_real _ ⟨⟨0, by decide⟩, Finset.mem_univ _⟩ _ fun k _ => ?_
  show ∃ l : ℝ, val_main_v4 (F := Ideal) X W B (hred.lift (ix1 r) k) = l
  rw [lift_row]
  exact hL _

/-! ## The reference's result -/

/-- With real inputs, the reference's entry `(r, q)` is token `r`'s gate value for expert `q`. -/
theorem result_apply (hX : ∀ i, ∃ x : ℝ, X i = x) (hW : ∀ i, ∃ x : ℝ, W i = x) (hB : ∀ i, ∃ x : ℝ, B i = x)
    (r : Fin 32768) (q : Fin 64) :
    val_main_v15 (F := Ideal) X W B (ix2 r q) = gateAt X W (fun q => B (ix1 q)) r q := by
  choose xr hxr using hX
  choose wr hwr using hW
  choose br hbr using hB
  have hL : ∀ q' : Fin 64, val_main_v4 (F := Ideal) X W B (ix2 r q')
      = (((∑ k : Fin 768, xr (ix2 r k) * wr (ix2 q' k)) + br (ix1 q') : ℝ) : EReal) := fun q' => by
    rw [logits_apply]
    simp only [hxr, hwr, hbr]
    exact logit_coe (fun k => xr (ix2 r k)) (fun q k => wr (ix2 q k)) (fun q => br (ix1 q)) q'
  obtain ⟨μ, hμ⟩ := shift_real X W B r (fun q' => ⟨_, hL q'⟩)
  have h11 : ∀ q' : Fin 64, val_main_v11 (F := Ideal) X W B (ix2 r q')
      = Ideal.exp ((((∑ k : Fin 768, xr (ix2 r k) * wr (ix2 q' k)) + br (ix1 q') : ℝ) : EReal) - (μ : EReal)) := fun q' => by
    rw [val_main_v11_apply, val_main_v10_apply, val_main_v9_apply, val_main_v8_apply, max_idx, hμ, hL q']
    rfl
  rw [val_main_v15_apply, val_main_v14_apply, val_main_v13_apply, val_main_v12_apply, val_main_cst_1_apply]
  simp only [sum_idx, h11]
  show Ideal.div _ (Ideal.ofBits .f32 0x00000000#32 + _) = _
  rw [Ideal.ofBits_zero_f32, shift_eq (fun q' => (∑ k : Fin 768, xr (ix2 r k) * wr (ix2 q' k)) + br (ix1 q')) μ q]
  unfold gateAt
  exact congrArg (fun l => gate l q) (funext fun q' => (hL q').symm.trans (logits_apply X W B r q'))

end Cert.ReferenceIdeal.GateValue

end
-- ==== Proof.lean ====
/-
  A mixture-of-experts gate: for each of 32768 tokens `x_r ∈ ℝ^768`, the 64 scores `l_q = ⟨x_r, w_q⟩ + b_q` and their
  softmax `e^{l_q} / ∑_{q'} e^{l_{q'}}`.

  The kernel works on blocks of 4096 tokens and computes `e^{l_q} · (1 / ∑ e^{l_{q'}})` with no shift of the scores. The
  reference subtracts each row's maximum before exponentiating: `e^{l_q - μ} / ∑ e^{l_{q'} - μ}`. On the extended reals,
  with exact operations, the two agree when the scores and `μ` are real: `e^{a - μ} = e^a / e^μ` and the factor `1 / e^μ`
  cancels (Proof/Softmax.lean). The precondition says every input entry is real (Proof/Finite.lean), hence every score
  is, and so is a row's maximum. Without it the claim would fail: an infinite score makes `l_q - μ` an `∞ - ∞`.

  The two sides are brought to ONE function of the inputs, `Gate.scores` (Proof/Spec.lean):
    · the kernel: what the body stores, at an entry (Proof/Payload.lean); the eight row blocks assembled into the whole
      array, the bias reaching the region as a reshaped row (Proof/Blocks.lean);
    · the reference: its operations read one at a time at an entry (Proof/RefGate.lean).
  The three runs terminate without a fault and leave the arguments unchanged; the kernel's idealization rewrote nothing, so
  that it preserves the kernel's meaning is trivially true.
-/
import proofs.«176954_g24068996727021_cont_8to1_1417_26_alg».proof.Defs
import proofs.«176954_g24068996727021_cont_8to1_1417_26_alg».proof.Proof.Gen.Kernel
import proofs.«176954_g24068996727021_cont_8to1_1417_26_alg».proof.Proof.Gen.Kernel.Skeleton
import proofs.«176954_g24068996727021_cont_8to1_1417_26_alg».proof.Proof.Gen.Kernel.Launch
import proofs.«176954_g24068996727021_cont_8to1_1417_26_alg».proof.Proof.Gen.Kernel.Points
import proofs.«176954_g24068996727021_cont_8to1_1417_26_alg».proof.Proof.Gen.Kernel.Frame
import proofs.«176954_g24068996727021_cont_8to1_1417_26_alg».proof.Proof.Gen.KernelIdeal
import proofs.«176954_g24068996727021_cont_8to1_1417_26_alg».proof.Proof.Gen.KernelIdeal.Skeleton
import proofs.«176954_g24068996727021_cont_8to1_1417_26_alg».proof.Proof.Gen.KernelIdeal.Launch
import proofs.«176954_g24068996727021_cont_8to1_1417_26_alg».proof.Proof.Gen.KernelIdeal.Points
import proofs.«176954_g24068996727021_cont_8to1_1417_26_alg».proof.Proof.Gen.KernelIdeal.Frame
import proofs.«176954_g24068996727021_cont_8to1_1417_26_alg».proof.Proof.Gen.ReferenceIdeal
import proofs.«176954_g24068996727021_cont_8to1_1417_26_alg».proof.Proof.Gen.Pre_finite_inputs
import proofs.«176954_g24068996727021_cont_8to1_1417_26_alg».proof.Proof.Gen.KernelIdeal.Value
import proofs.«176954_g24068996727021_cont_8to1_1417_26_alg».proof.Proof.Gen.ReferenceIdeal.Run
import proofs.«176954_g24068996727021_cont_8to1_1417_26_alg».proof.Proof.Gen.ReferenceIdeal.Read
import proofs.«176954_g24068996727021_cont_8to1_1417_26_alg».proof.Proof.Finite
import proofs.«176954_g24068996727021_cont_8to1_1417_26_alg».proof.Proof.Blocks
import proofs.«176954_g24068996727021_cont_8to1_1417_26_alg».proof.Proof.RefGate
import Idealize.ShloMosaic.Adequacy
import Idealize.ShloMosaic.Init

noncomputable section

namespace Cert.Proof

open Idealize.ShloMosaic Idealize.SL.Sem Idealize.ShloMosaic.ValueIdx Cert.Gate

/-- The kernel as printed runs, and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments, real by the precondition, both programs end with the result
    array at `Gate.scores` of the arguments: the kernel by its blocks, the reference entry by entry, where the real
    shift it subtracts cancels. -/
theorem algebraic : Cert.algebraic_KernelIdeal_ReferenceIdeal := by
  intro m ρ m' ρ' hpre hagree
  refine ⟨fun c => scores (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (fun q => m ((c.tc : Thread Cert.KernelIdeal.nD Cert.KernelIdeal.τ).loc Cert.KernelIdeal.main_arg2) (ix1 q)),
    Cert.KernelIdeal.GateValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  obtain ⟨hX, hW, hB⟩ := inputs_real _ _ _ (hpre c)
  refine (Cert.ReferenceIdeal.Read.val_main_v15_eq _ _ _).trans ?_
  funext i
  obtain ⟨r, q, rfl⟩ : ∃ (r : Fin 32768) (q : Fin 64), i = ix2 r q := ⟨i 0, i 1, eq_ix2 i⟩
  exact Cert.ReferenceIdeal.GateValue.result_apply _ _ _ hX hW hB r q

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
